-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x3072 : Shape := ⟨3, ![2, 4096, 3072]⟩
abbrev S3072x3072 : Shape := ⟨2, ![3072, 3072]⟩
abbrev S3072x1 : Shape := ⟨2, ![3072, 1]⟩
abbrev S3072x64 : Shape := ⟨2, ![3072, 64]⟩
abbrev S64x3072 : Shape := ⟨2, ![64, 3072]⟩
abbrev S3072 : Shape := ⟨1, ![3072]⟩
abbrev S_ : Shape := ⟨0, ![]⟩

class Facts : Prop where
  bcast_S_S2x4096x3072 : S_.BroadcastsInDim S2x4096x3072 (![] : Fin 0 → Fin S2x4096x3072.rank)
  reducesTo_S2x4096x3072_S_d0_1_2 : S2x4096x3072.ReducesTo [0, 1, 2] S_
  h_S_ : 0 < S_.numel
  bcast_S_S3072x1 : S_.BroadcastsInDim S3072x1 (![] : Fin 0 → Fin S3072x1.rank)
  reducesTo_S3072x1_S_d0_1 : S3072x1.ReducesTo [0, 1] S_
  bcast_S_S3072x64 : S_.BroadcastsInDim S3072x64 (![] : Fin 0 → Fin S3072x64.rank)
  reducesTo_S3072x64_S_d0_1 : S3072x64.ReducesTo [0, 1] S_
  bcast_S_S64x3072 : S_.BroadcastsInDim S64x3072 (![] : Fin 0 → Fin S64x3072.rank)
  reducesTo_S64x3072_S_d0_1 : S64x3072.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_arg5 : FVec F S3072 .f32) (main_v13 : IVec S_ 1) (main_v16 : IVec S64x3072 1) : IVec S_ 1 :=
  let main_c_5 : IVec S_ 1 := constantI S_ 1 1#1
  let main_v17 : IVec S_ 1 := (fun x v => Host.reduce IntOp.andi x v reducesTo_S64x3072_S_d0_1 h_S_) main_v16 main_c_5
  let main_v18 : IVec S_ 1 := andi main_v13 main_v17
  let main_v19 : FVec F S3072 .f32 := Host.absf main_arg5
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  main_v23

def fn {F : FTy → Type} [FloatOps F] (main_arg0 : FVec F S2x4096x3072 .f32) (main_arg1 : IVec S3072x3072 32) (main_arg2 : FVec F S3072x1 .f32) (main_arg3 : FVec F S3072x64 .f32) (main_arg4 : FVec F S64x3072 .f32) (main_arg5 : FVec F S3072 .f32) : IVec S_ 1 :=
  let main_v0 : FVec F S2x4096x3072 .f32 := Host.absf main_arg0
  let main_cst : FVec F S_ .f32 := constant S_ .f32 0x7F800000#32
  let main_v1 : FVec F S2x4096x3072 .f32 := broadcastInDim S2x4096x3072 ![] bcast_S_S2x4096x3072 main_cst
  let main_v2 : IVec S2x4096x3072 1 := cmpf .olt main_v0 main_v1
  let main_c : IVec S_ 1 := constantI S_ 1 1#1
  let main_v3 : IVec S_ 1 := (fun x v => Host.reduce IntOp.andi x v reducesTo_S2x4096x3072_S_d0_1_2 h_S_) main_v2 main_c
  let main_v4 : FVec F S3072x1 .f32 := Host.absf main_arg2
  let main_cst_0 : FVec F S_ .f32 := constant S_ .f32 0x7F800000#32
  let main_v5 : FVec F S3072x1 .f32 := broadcastInDim S3072x1 ![] bcast_S_S3072x1 main_cst_0
  let main_v6 : IVec S3072x1 1 := cmpf .olt main_v4 main_v5
  let main_c_1 : IVec S_ 1 := constantI S_ 1 1#1
  let main_v7 : IVec S_ 1 := (fun x v => Host.reduce IntOp.andi x v reducesTo_S3072x1_S_d0_1 h_S_) main_v6 main_c_1
  let main_v8 : IVec S_ 1 := andi main_v3 main_v7
  let main_v9 : FVec F S3072x64 .f32 := Host.absf main_arg3
  let main_cst_2 : FVec F S_ .f32 := constant S_ .f32 0x7F800000#32
  let main_v10 : FVec F S3072x64 .f32 := broadcastInDim S3072x64 ![] bcast_S_S3072x64 main_cst_2
  let main_v11 : IVec S3072x64 1 := cmpf .olt main_v9 main_v10
  let main_c_3 : IVec S_ 1 := constantI S_ 1 1#1
  let main_v12 : IVec S_ 1 := (fun x v => Host.reduce IntOp.andi x v reducesTo_S3072x64_S_d0_1 h_S_) main_v11 main_c_3
  let main_v13 : IVec S_ 1 := andi main_v8 main_v12
  let main_v14 : FVec F S64x3072 .f32 := Host.absf main_arg4
  let main_cst_4 : FVec F S_ .f32 := constant S_ .f32 0x7F800000#32
  let main_v15 : FVec F S64x3072 .f32 := broadcastInDim S64x3072 ![] bcast_S_S64x3072 main_cst_4
  let main_v16 : IVec S64x3072 1 := cmpf .olt main_v14 main_v15
  fn_part1 (F := F) main_arg5 main_v13 main_v16
-- ==== Kernel.lean ====
abbrev S2x4096x3072 : Shape := ⟨3, ![2, 4096, 3072]⟩
abbrev S3072x3072 : Shape := ⟨2, ![3072, 3072]⟩
abbrev S3072x1 : Shape := ⟨2, ![3072, 1]⟩
abbrev S3072x64 : Shape := ⟨2, ![3072, 64]⟩
abbrev S64x3072 : Shape := ⟨2, ![64, 3072]⟩
abbrev S3072 : Shape := ⟨1, ![3072]⟩
abbrev S1x3072 : Shape := ⟨2, ![1, 3072]⟩
abbrev S8192x3072 : Shape := ⟨2, ![8192, 3072]⟩
abbrev S512x3072 : Shape := ⟨2, ![512, 3072]⟩
abbrev S1024x3072 : Shape := ⟨2, ![1024, 3072]⟩
abbrev S1024x64 : Shape := ⟨2, ![1024, 64]⟩
abbrev S1x1024 : Shape := ⟨2, ![1, 1024]⟩
abbrev S512x1024 : Shape := ⟨2, ![512, 1024]⟩
abbrev S512x64 : Shape := ⟨2, ![512, 64]⟩

abbrev nBuf : Space → Nat
  | .hbm => 17
  | .vmem => 11
  | .smem => 0
  | _ => 0

abbrev bufTy : (tb : Table) → Fin (tcTables nBuf tb) → BufTy
  | .hbm, ⟨0, _⟩ => ⟨S2x4096x3072, .f32⟩
  | .hbm, ⟨1, _⟩ => ⟨S3072x3072, .i32⟩
  | .hbm, ⟨2, _⟩ => ⟨S3072x1, .f32⟩
  | .hbm, ⟨3, _⟩ => ⟨S3072x64, .f32⟩
  | .hbm, ⟨4, _⟩ => ⟨S64x3072, .f32⟩
  | .hbm, ⟨5, _⟩ => ⟨S3072, .f32⟩
  | .hbm, ⟨6, _⟩ => ⟨S3072x3072, .f32⟩
  | .hbm, ⟨7, _⟩ => ⟨S3072x3072, .f32⟩
  | .hbm, ⟨8, _⟩ => ⟨S3072x3072, .f32⟩
  | .hbm, ⟨9, _⟩ => ⟨S3072x3072, .bf16⟩
  | .hbm, ⟨10, _⟩ => ⟨S3072x64, .bf16⟩
  | .hbm, ⟨11, _⟩ => ⟨S64x3072, .bf16⟩
  | .hbm, ⟨12, _⟩ => ⟨S1x3072, .f32⟩
  | .hbm, ⟨13, _⟩ => ⟨S8192x3072, .f32⟩
  | .hbm, ⟨14, _⟩ => ⟨S8192x3072, .bf16⟩
  | .hbm, ⟨15, _⟩ => ⟨S8192x3072, .f32⟩
  | .hbm, ⟨16, _⟩ => ⟨S2x4096x3072, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x64, .bf16⟩
  | .local _ .vmem, ⟨5, _⟩ => ⟨S1024x64, .bf16⟩
  | .local _ .vmem, ⟨6, _⟩ => ⟨S64x3072, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S2x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S64x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S3072x1_S3072x3072_0_1 : S3072x1.BroadcastsInDim S3072x3072 (![0, 1] : Fin 2 → Fin S3072x3072.rank)
  bitsLt_bf16_f32 : FTy.bits .bf16 < FTy.bits .f32
  shapeCasts_S3072_S1x3072 : S3072.ShapeCasts S1x3072
  shapeCasts_S2x4096x3072_S8192x3072 : S2x4096x3072.ShapeCasts S8192x3072
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S64x3072_S64x3072_0_0 : ∀ a, (![0, 0] : Fin 2 → Nat) a + S64x3072.size a ≤ S64x3072.size a
  h_S64x3072 : 0 < S64x3072.numel
  shapeCasts_S64x3072_S64x3072 : S64x3072.ShapeCasts S64x3072
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S8192x3072_S2x4096x3072 : S8192x3072.ShapeCasts S2x4096x3072
  dot_S512x3072_S1024x3072_S512x1024_1_1_0_0_n_n_wf : DotDims.WF S512x3072 S1024x3072 S512x1024 [1] [1] [0] [0] [] []
  dot_S512x3072_S64x3072_S512x64_1_1_0_0_n_n_wf : DotDims.WF S512x3072 S64x3072 S512x64 [1] [1] [0] [0] [] []
  dot_S512x64_S1024x64_S512x1024_1_1_0_0_n_n_wf : DotDims.WF S512x64 S1024x64 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S8192x3072.size a
  hwx0_0 : ∀ i : grid0.Coords, EltTy.bits .bf16 = 32 ∨ (Rect.block (s := S8192x3072) S512x3072.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S3072x3072.size a
  hwx0_1 : ∀ i : grid0.Coords, EltTy.bits .bf16 = 32 ∨ (Rect.block (s := S3072x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S3072x64.size a
  hwx0_2 : ∀ i : grid0.Coords, EltTy.bits .bf16 = 32 ∨ (Rect.block (s := S3072x64) S1024x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x3072.size a ≤ S64x3072.size a
  hwx0_3 : ∀ i : grid0.Coords, EltTy.bits .bf16 = 32 ∨ (Rect.block (s := S64x3072) S64x3072.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x3072.size a
  hwx0_4 : ∀ i : grid0.Coords, EltTy.bits .f32 = 32 ∨ (Rect.block (s := S1x3072) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x3072.size a
  hwx0_5 : ∀ i : grid0.Coords, EltTy.bits .f32 = 32 ∨ (Rect.block (s := S8192x3072) S512x1024.size (cc0_transform_5 i) (hinb0_5 i)).WholeWords (EltTy.packing .f32)

variable [Facts₀]

def dot_S512x3072_S1024x3072_S512x1024_1_1_0_0_n_n : DotDims S512x3072 S1024x3072 S512x1024 where
  lhsContracting := [1]
  rhsContracting := [1]
  lhsNonContracting := [0]
  rhsNonContracting := [0]
  lhsBatch := []
  rhsBatch := []
  wf := dot_S512x3072_S1024x3072_S512x1024_1_1_0_0_n_n_wf
def dot_S512x3072_S64x3072_S512x64_1_1_0_0_n_n : DotDims S512x3072 S64x3072 S512x64 where
  lhsContracting := [1]
  rhsContracting := [1]
  lhsNonContracting := [0]
  rhsNonContracting := [0]
  lhsBatch := []
  rhsBatch := []
  wf := dot_S512x3072_S64x3072_S512x64_1_1_0_0_n_n_wf
def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf

abbrev win0_0 : Pipeline.Window sig grid0 :=
  Pipeline.Window.ofSpec (Memref.whole main_v8) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4096x3072 : Shape := ⟨3, ![2, 4096, 3072]⟩
abbrev S3072x3072 : Shape := ⟨2, ![3072, 3072]⟩
abbrev S3072x1 : Shape := ⟨2, ![3072, 1]⟩
abbrev S3072x64 : Shape := ⟨2, ![3072, 64]⟩
abbrev S64x3072 : Shape := ⟨2, ![64, 3072]⟩
abbrev S3072 : Shape := ⟨1, ![3072]⟩
abbrev S1x1x3072 : Shape := ⟨3, ![1, 1, 3072]⟩
abbrev S2x4096x64 : Shape := ⟨3, ![2, 4096, 64]⟩

abbrev nBuf : Space → Nat
  | .hbm => 17
  | .vmem => 0
  | .smem => 0
  | _ => 0

abbrev bufTy : (tb : Table) → Fin (tcTables nBuf tb) → BufTy
  | .hbm, ⟨0, _⟩ => ⟨S2x4096x3072, .f32⟩
  | .hbm, ⟨1, _⟩ => ⟨S3072x3072, .i32⟩
  | .hbm, ⟨2, _⟩ => ⟨S3072x1, .f32⟩
  | .hbm, ⟨3, _⟩ => ⟨S3072x64, .f32⟩
  | .hbm, ⟨4, _⟩ => ⟨S64x3072, .f32⟩
  | .hbm, ⟨5, _⟩ => ⟨S3072, .f32⟩
  | .hbm, ⟨6, _⟩ => ⟨S3072x3072, .f32⟩
  | .hbm, ⟨7, _⟩ => ⟨S2x4096x3072, .f32⟩
  | .hbm, ⟨8, _⟩ => ⟨S1x1x3072, .f32⟩
  | .hbm, ⟨9, _⟩ => ⟨S2x4096x3072, .f32⟩
  | .hbm, ⟨10, _⟩ => ⟨S2x4096x3072, .f32⟩
  | .hbm, ⟨11, _⟩ => ⟨S2x4096x64, .f32⟩
  | .hbm, ⟨12, _⟩ => ⟨S2x4096x3072, .f32⟩
  | .hbm, ⟨13, _⟩ => ⟨S2x4096x3072, .f32⟩
  | .hbm, ⟨14, _⟩ => ⟨S1x1x3072, .f32⟩
  | .hbm, ⟨15, _⟩ => ⟨S2x4096x3072, .f32⟩
  | .hbm, ⟨16, _⟩ => ⟨S2x4096x3072, .f32⟩
  | _, _ => ⟨S2x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  shapeCasts_S3072x1_S1x1x3072 : S3072x1.ShapeCasts S1x1x3072
  bcast_S1x1x3072_S2x4096x3072_0_1_2 : S1x1x3072.BroadcastsInDim S2x4096x3072 (![0, 1, 2] : Fin 3 → Fin S2x4096x3072.rank)
  bcast_S3072_S1x1x3072_2 : S3072.BroadcastsInDim S1x1x3072 (![2] : Fin 1 → Fin S1x1x3072.rank)
  dot_S2x4096x3072_S3072x3072_S2x4096x3072_2_1_01_0_n_n_wf : DotDims.WF S2x4096x3072 S3072x3072 S2x4096x3072 [2] [1] [0, 1] [0] [] []
  dot_S2x4096x3072_S64x3072_S2x4096x64_2_1_01_0_n_n_wf : DotDims.WF S2x4096x3072 S64x3072 S2x4096x64 [2] [1] [0, 1] [0] [] []
  dot_S2x4096x64_S3072x64_S2x4096x3072_2_1_01_0_n_n_wf : DotDims.WF S2x4096x64 S3072x64 S2x4096x3072 [2] [1] [0, 1] [0] [] []

variable [Facts₀]

def dot_S2x4096x3072_S3072x3072_S2x4096x3072_2_1_01_0_n_n : DotDims S2x4096x3072 S3072x3072 S2x4096x3072 where
  lhsContracting := [2]
  rhsContracting := [1]
  lhsNonContracting := [0, 1]
  rhsNonContracting := [0]
  lhsBatch := []
  rhsBatch := []
  wf := dot_S2x4096x3072_S3072x3072_S2x4096x3072_2_1_01_0_n_n_wf
def dot_S2x4096x3072_S64x3072_S2x4096x64_2_1_01_0_n_n : DotDims S2x4096x3072 S64x3072 S2x4096x64 where
  lhsContracting := [2]
  rhsContracting := [1]
  lhsNonContracting := [0, 1]
  rhsNonContracting := [0]
  lhsBatch := []
  rhsBatch := []
  wf := dot_S2x4096x3072_S64x3072_S2x4096x64_2_1_01_0_n_n_wf
def dot_S2x4096x64_S3072x64_S2x4096x3072_2_1_01_0_n_n : DotDims S2x4096x64 S3072x64 S2x4096x3072 where
  lhsContracting := [2]
  rhsContracting := [1]
  lhsNonContracting := [0, 1]
  rhsNonContracting := [0]
  lhsBatch := []
  rhsBatch := []
  wf := dot_S2x4096x64_S3072x64_S2x4096x3072_2_1_01_0_n_n_wf

class Facts : Prop extends Facts₀ where

variable [Facts]
-- ==== Proof.LibERealSums.lean ====
/-
  General facts about finite sums of extended reals.

  An extended real is FINITE when it is neither `⊥` nor `⊤`, that is, when it is a real number. The finite extended
  reals are closed under `+`, `-`, `*` and finite sums, and on them `x - x = 0` (which fails at the infinities:
  `⊤ - ⊤ = ⊥`). The hyperbolic tangent of the extended reals (`tanh ⊥ = -1`, `tanh ⊤ = 1`) is finite everywhere.

  A product of two matrices computed as  a·b + a·(b - b) + (a - a)·b  is therefore  a·b  on finite entries
  (`three_pass`); a running total that starts from its first term and adds one term per step is the sum of the
  terms (`acc_eq_sum`); a sum over `Fin (a * b)` is the sum over `a` blocks of `b` consecutive indices
  (`sum_blocks…`); and a sum over `Fin 128` is the sum over its lower and upper halves (`sum_halves`).
-/
import Idealize.ShloMosaic.PureOps.Ideal
import Mathlib.Algebra.BigOperators.Fin
import Mathlib.Logic.Equiv.Fin.Basic

noncomputable section

open scoped BigOperators

namespace Cert.LibERealSums

open Idealize.ShloMosaic

/-! ## Finite extended reals -/

/-- An extended real is finite when it is neither infinity. -/
def IsFin (x : EReal) : Prop := x ≠ ⊥ ∧ x ≠ ⊤

/-- A real number, seen as an extended real, is finite. -/
theorem isFin_coe (r : ℝ) : IsFin (r : EReal) := ⟨EReal.coe_ne_bot r, EReal.coe_ne_top r⟩

/-- A finite extended real is a real number. -/
theorem IsFin.exists_coe {x : EReal} (h : IsFin x) : ∃ r : ℝ, x = (r : EReal) := by
  lift x to ℝ using ⟨h.2, h.1⟩
  exact ⟨x, rfl⟩

/-- Zero is finite. -/
theorem isFin_zero : IsFin 0 := by
  rw [← EReal.coe_zero]; exact isFin_coe 0

/-- One is finite. -/
theorem isFin_one : IsFin 1 := by
  rw [← EReal.coe_one]; exact isFin_coe 1

/-- The sum of two finite extended reals is finite. -/
theorem IsFin.add {x y : EReal} (hx : IsFin x) (hy : IsFin y) : IsFin (x + y) := by
  obtain ⟨r, rfl⟩ := hx.exists_coe
  obtain ⟨s, rfl⟩ := hy.exists_coe
  rw [← EReal.coe_add]; exact isFin_coe _

/-- The product of two finite extended reals is finite. -/
theorem IsFin.mul {x y : EReal} (hx : IsFin x) (hy : IsFin y) : IsFin (x * y) := by
  obtain ⟨r, rfl⟩ := hx.exists_coe
  obtain ⟨s, rfl⟩ := hy.exists_coe
  rw [← EReal.coe_mul]; exact isFin_coe _

/-- The negation of a finite extended real is finite. -/
theorem IsFin.neg {x : EReal} (hx : IsFin x) : IsFin (-x) := by
  obtain ⟨r, rfl⟩ := hx.exists_coe
  rw [← EReal.coe_neg]; exact isFin_coe _

/-- The difference of two finite extended reals is finite. -/
theorem IsFin.sub {x y : EReal} (hx : IsFin x) (hy : IsFin y) : IsFin (x - y) := by
  obtain ⟨r, rfl⟩ := hx.exists_coe
  obtain ⟨s, rfl⟩ := hy.exists_coe
  rw [← EReal.coe_sub]; exact isFin_coe _

/-- A finite extended real minus itself is zero. (At an infinity it is not: `⊤ - ⊤ = ⊥`.) -/
theorem sub_self_of_isFin {x : EReal} (hx : IsFin x) : x - x = 0 := by
  obtain ⟨r, rfl⟩ := hx.exists_coe
  rw [← EReal.coe_sub, sub_self, EReal.coe_zero]

/-- A sum of finite extended reals over a finite set is finite. -/
theorem isFin_sum {ι : Type*} (s : Finset ι) (f : ι → EReal) (h : ∀ i ∈ s, IsFin (f i)) : IsFin (∑ i ∈ s, f i) :=
  Finset.sum_induction f IsFin (fun _ _ => IsFin.add) isFin_zero h

/-- A sum of finite extended reals over a finite type is finite. -/
theorem isFin_sum_univ {ι : Type*} [Fintype ι] (f : ι → EReal) (h : ∀ i, IsFin (f i)) : IsFin (∑ i, f i) :=
  isFin_sum Finset.univ f fun i _ => h i

/-- A finite sum of products of finite extended reals is finite. -/
theorem isFin_sum_mul {ι : Type*} [Fintype ι] (a b : ι → EReal) (ha : ∀ i, IsFin (a i)) (hb : ∀ i, IsFin (b i)) :
    IsFin (∑ i, a i * b i) :=
  isFin_sum_univ _ fun i => (ha i).mul (hb i)

/-- The hyperbolic tangent of an extended real is finite, at the infinities too (`tanh ⊥ = -1`, `tanh ⊤ = 1`). -/
theorem isFin_tanh (x : EReal) : IsFin (Ideal.tanh x) := by
  induction x using EReal.rec with
  | bot => rw [Ideal.tanh_bot]; exact isFin_one.neg
  | top => rw [Ideal.tanh_top]; exact isFin_one
  | coe r => rw [Ideal.tanh_coe]; exact isFin_coe _

/-! ## A product in three passes -/

/-- A sum of products whose second factors are all zero is zero. -/
theorem sum_mul_zero {ι : Type*} (s : Finset ι) (a : ι → EReal) : ∑ l ∈ s, a l * 0 = 0 :=
  Finset.sum_eq_zero fun _ _ => mul_zero _

/-- A sum of products whose first factors are all zero is zero. -/
theorem sum_zero_mul {ι : Type*} (s : Finset ι) (b : ι → EReal) : ∑ l ∈ s, 0 * b l = 0 :=
  Finset.sum_eq_zero fun _ _ => zero_mul _

/-- With finite second factors, `∑ a · (b - b) = 0` (whatever the first factors are: `a · 0 = 0`). -/
theorem sum_mul_sub_self {ι : Type*} (s : Finset ι) (a b : ι → EReal) (hb : ∀ l, IsFin (b l)) :
    ∑ l ∈ s, a l * (b l - b l) = 0 :=
  Finset.sum_eq_zero fun l _ => by rw [sub_self_of_isFin (hb l), mul_zero]

/-- With finite first factors, `∑ (a - a) · b = 0` (whatever the second factors are: `0 · b = 0`). -/
theorem sum_sub_self_mul {ι : Type*} (s : Finset ι) (a b : ι → EReal) (ha : ∀ l, IsFin (a l)) :
    ∑ l ∈ s, (a l - a l) * b l = 0 :=
  Finset.sum_eq_zero fun l _ => by rw [sub_self_of_isFin (ha l), zero_mul]

/-- THE THREE-PASS PRODUCT: for finite factors,  `∑ a·b + ∑ a·(b - b) + ∑ (a - a)·b = ∑ a·b`. -/
theorem three_pass {ι : Type*} [Fintype ι] (a b : ι → EReal) (ha : ∀ l, IsFin (a l)) (hb : ∀ l, IsFin (b l)) :
    ((∑ l, a l * b l) + (∑ l, a l * (b l - b l))) + (∑ l, (a l - a l) * b l) = ∑ l, a l * b l := by
  rw [sum_mul_sub_self _ a b hb, sum_sub_self_mul _ a b ha, add_zero, add_zero]

/-- The three-pass product with the two correction sums already written over zero factors. -/
theorem three_pass_zero {ι : Type*} [Fintype ι] (a b : ι → EReal) :
    ((∑ l, a l * b l) + (∑ l, a l * 0)) + (∑ l, 0 * b l) = ∑ l, a l * b l := by
  rw [sum_mul_zero, sum_zero_mul, add_zero, add_zero]

/-- The three-pass product with each pass added to a leading zero (a product accumulated into a zero total). -/
theorem three_pass_zero_add {ι : Type*} [Fintype ι] (a b : ι → EReal) (ha : ∀ l, IsFin (a l)) (hb : ∀ l, IsFin (b l)) :
    ((0 + ∑ l, a l * b l) + (0 + ∑ l, a l * (b l - b l))) + (0 + ∑ l, (a l - a l) * b l) = ∑ l, a l * b l := by
  rw [zero_add, zero_add, zero_add, three_pass a b ha hb]

/-- TWO THREE-PASS PRODUCTS ADDED IN ONE CHAIN: for finite factors,
    `((((∑ a·b + ∑ a·(b - b)) + ∑ (a - a)·b) + ∑ c·d) + ∑ c·(d - d)) + ∑ (c - c)·d = ∑ a·b + ∑ c·d`. -/
theorem six_pass {ι κ : Type*} [Fintype ι] [Fintype κ] (a b : ι → EReal) (c d : κ → EReal)
    (ha : ∀ l, IsFin (a l)) (hb : ∀ l, IsFin (b l)) (hc : ∀ l, IsFin (c l)) (hd : ∀ l, IsFin (d l)) :
    (((((∑ l, a l * b l) + (∑ l, a l * (b l - b l))) + (∑ l, (a l - a l) * b l)) + (∑ l, c l * d l))
        + (∑ l, c l * (d l - d l))) + (∑ l, (c l - c l) * d l)
      = (∑ l, a l * b l) + (∑ l, c l * d l) := by
  rw [sum_mul_sub_self _ a b hb, sum_sub_self_mul _ a b ha, sum_mul_sub_self _ c d hd, sum_sub_self_mul _ c d hc,
    add_zero, add_zero, add_zero, add_zero]

/-! ## A running total is the sum of its terms -/

/-- A total that starts at `0 + t 0` and adds `t (k+1)` at step `k + 1` is, after step `n`, the sum of
    `t 0, …, t n`. -/
theorem acc_eq_sum (t acc : ℕ → EReal) (h0 : acc 0 = 0 + t 0) (hs : ∀ k, acc (k + 1) = acc k + t (k + 1)) (n : ℕ) :
    acc n = ∑ s ∈ Finset.range (n + 1), t s := by
  induction n with
  | zero => rw [h0, zero_add, Finset.sum_range_one]
  | succ k ih => rw [hs k, ih, Finset.sum_range_succ _ (k + 1)]

/-- The same for a total that starts at `t 0`. -/
theorem acc_eq_sum' (t acc : ℕ → EReal) (h0 : acc 0 = t 0) (hs : ∀ k, acc (k + 1) = acc k + t (k + 1)) (n : ℕ) :
    acc n = ∑ s ∈ Finset.range (n + 1), t s :=
  acc_eq_sum t acc (by rw [h0, zero_add]) hs n

/-- The same when the step rule is known only up to a last step `N`: the total after step `n ≤ N`. -/
theorem acc_eq_sum_le (t acc : ℕ → EReal) (N : ℕ) (h0 : acc 0 = 0 + t 0)
    (hs : ∀ k, k + 1 ≤ N → acc (k + 1) = acc k + t (k + 1)) (n : ℕ) (hn : n ≤ N) :
    acc n = ∑ s ∈ Finset.range (n + 1), t s := by
  induction n with
  | zero => rw [h0, zero_add, Finset.sum_range_one]
  | succ k ih => rw [hs k hn, ih (by omega), Finset.sum_range_succ _ (k + 1)]

/-- … and for a total that starts at `t 0`. -/
theorem acc_eq_sum_le' (t acc : ℕ → EReal) (N : ℕ) (h0 : acc 0 = t 0)
    (hs : ∀ k, k + 1 ≤ N → acc (k + 1) = acc k + t (k + 1)) (n : ℕ) (hn : n ≤ N) :
    acc n = ∑ s ∈ Finset.range (n + 1), t s :=
  acc_eq_sum_le t acc N (by rw [h0, zero_add]) hs n hn

/-- A running total of finite terms is finite. -/
theorem isFin_acc (t acc : ℕ → EReal) (h0 : acc 0 = 0 + t 0) (hs : ∀ k, acc (k + 1) = acc k + t (k + 1))
    (ht : ∀ s, IsFin (t s)) (n : ℕ) : IsFin (acc n) := by
  rw [acc_eq_sum t acc h0 hs n]; exact isFin_sum _ _ fun s _ => ht s

/-! ## A sum in blocks -/

/-- The index `s * b + l` of entry `l` of block `s` is below `a * b`. -/
theorem block_lt {a b : ℕ} (s : Fin a) (l : Fin b) : s.val * b + l.val < a * b := by
  have hs := s.isLt
  have hl := l.isLt
  calc s.val * b + l.val < s.val * b + b := Nat.add_lt_add_left hl _
    _ = (s.val + 1) * b := (Nat.succ_mul _ _).symm
    _ ≤ a * b := Nat.mul_le_mul_right _ hs

/-- A sum over `Fin (a * b)` is the sum over `a` blocks of `b` consecutive indices: block `s`, entry `l` is
    index `s * b + l`. -/
theorem sum_blocks_fin {M : Type*} [AddCommMonoid M] {a b : ℕ} (f : Fin (a * b) → M) :
    ∑ s : Fin a, ∑ l : Fin b, f ⟨s.val * b + l.val, block_lt s l⟩ = ∑ n, f n := by
  rw [← Equiv.sum_comp (finProdFinEquiv (m := a) (n := b)) f, Fintype.sum_prod_type]
  refine Finset.sum_congr rfl fun s _ => Finset.sum_congr rfl fun l _ => congrArg f (Fin.ext ?_)
  show s.val * b + l.val = l.val + b * s.val
  rw [Nat.mul_comm, Nat.add_comm]

/-- The same with the blocks counted by a natural number below `a`, for block terms `F s l` known to be `f` at
    index `s * b + l` whenever `s < a`. -/
theorem sum_blocks_range {M : Type*} [AddCommMonoid M] {a b : ℕ} (f : Fin (a * b) → M) (F : ℕ → Fin b → M)
    (hF : ∀ (s : ℕ) (hs : s < a) (l : Fin b), F s l = f ⟨s * b + l.val, block_lt ⟨s, hs⟩ l⟩) :
    ∑ s ∈ Finset.range a, ∑ l : Fin b, F s l = ∑ n, f n := by
  rw [← sum_blocks_fin f, ← Fin.sum_univ_eq_sum_range (fun s => ∑ l : Fin b, F s l) a]
  exact Finset.sum_congr rfl fun s _ => Finset.sum_congr rfl fun l _ => hF s.val s.isLt l

/-- 16 blocks of 1024: a sum over `Fin 16384` from its blocks, counted by `Fin 16`. -/
theorem sum_blocks_16_1024_fin {M : Type*} [AddCommMonoid M] (f : Fin 16384 → M) :
    ∑ s : Fin 16, ∑ l : Fin 1024, f ⟨s.val * 1024 + l.val, by have := s.isLt; have := l.isLt; omega⟩ = ∑ n, f n :=
  sum_blocks_fin (a := 16) (b := 1024) f

/-- 16 blocks of 1024: a sum over `Fin 16384` from block terms `F s l` known to be `f` at index `s * 1024 + l`
    whenever `s < 16`, the blocks counted by a natural number. -/
theorem sum_blocks_16_1024 {M : Type*} [AddCommMonoid M] (f : Fin 16384 → M) (F : ℕ → Fin 1024 → M)
    (hF : ∀ (s : ℕ) (hs : s < 16) (l : Fin 1024),
      F s l = f ⟨s * 1024 + l.val, by have := l.isLt; omega⟩) :
    ∑ s ∈ Finset.range 16, ∑ l : Fin 1024, F s l = ∑ n, f n :=
  sum_blocks_range (a := 16) (b := 1024) f F hF

/-- 16 blocks of 1024 with the index guarded by its bound: the form with no proof argument. -/
theorem sum_blocks_16_1024_dite {M : Type*} [AddCommMonoid M] (f : Fin 16384 → M) :
    ∑ s ∈ Finset.range 16, ∑ l : Fin 1024,
        (if h : s * 1024 + l.val < 16384 then f ⟨s * 1024 + l.val, h⟩ else 0) = ∑ n, f n :=
  sum_blocks_16_1024 f _ fun s hs l => dif_pos (by have := l.isLt; omega)

/-! ## A sum in halves -/

/-- A sum over `Fin 128` is the sum over indices `k < 64` plus the sum over indices `64 + k`, `k < 64`. -/
theorem sum_halves {M : Type*} [AddCommMonoid M] (f : Fin 128 → M) :
    ∑ k : Fin 128, f k
      = (∑ k : Fin 64, f ⟨k.val, by have := k.isLt; omega⟩) + (∑ k : Fin 64, f ⟨64 + k.val, by have := k.isLt; omega⟩) :=
  Fin.sum_univ_add (a := 64) (b := 64) f

/-! ## A finite sum times a constant -/

/-- For finite terms and a finite factor, `(∑ t) · w = ∑ t · w`. -/
theorem sum_mul_of_isFin {ι : Type*} (s : Finset ι) (t : ι → EReal) (w : EReal) (ht : ∀ l, IsFin (t l)) (hw : IsFin w) :
    (∑ l ∈ s, t l) * w = ∑ l ∈ s, t l * w := by
  obtain ⟨r, rfl⟩ := hw.exists_coe
  choose u hu using fun l => (ht l).exists_coe
  have hcoe : ∀ (g : ι → ℝ), (∑ l ∈ s, ((g l : ℝ) : EReal)) = ((∑ l ∈ s, g l : ℝ) : EReal) := by
    intro g
    classical
    induction s using Finset.induction_on with
    | empty => simp
    | insert i s hi ih => rw [Finset.sum_insert hi, Finset.sum_insert hi, EReal.coe_add, ih]
  simp only [hu, ← EReal.coe_mul]
  rw [hcoe, hcoe, ← EReal.coe_mul, Finset.sum_mul]

end Cert.LibERealSums

end
-- ==== Proof.Spec.lean ====
/-
  A linear layer with ternary weights, a per-channel scale, a low-rank correction and a bias, as one function of its
  arguments on the extended reals.

  For activations x of shape [2, 4096, 3072], weights w of shape [3072, 3072] (one row per output channel), a scale s
  of shape [3072, 1], low-rank factors A of shape [3072, 64] and B of shape [64, 3072], and a bias of length 3072, the
  layer's value at batch b, position t and output channel o is

      (sum over k of x(b,t,k) * w(o,k)) * s(o)  +  sum over r of (sum over k of x(b,t,k) * B(r,k)) * A(o,r)  +  bias(o).

  Computed over the flattened activations X of shape [8192, 3072] (row b*4096 + t), with the scale folded into the
  weights first, Wd(o,k) = w(o,k) * s(o), the same value reads

      sum over k of X(row,k) * Wd(o,k)  +  sum over r of (sum over k of X(row,k) * B(r,k)) * A(o,r)  +  bias(o).

  The two agree when x, w and s are finite: a finite factor moves out of a finite sum of finite terms. (At an
  infinity it need not: the sum may hold both infinities.)
-/
import Idealize.ShloMosaic.PureOps.Ideal
import Idealize.ShloMosaic.Lib.ValueIdx
import proofs.«126380_j78589311582693_1_alg».proof.Proof.LibERealSums

noncomputable section

open scoped BigOperators

namespace Cert.TernaryLora

open Idealize.ShloMosaic Idealize.ShloMosaic.ValueIdx Cert.LibERealSums

/-- The layer over flattened activations and scaled weights: row `p` of X against row `o` of Wd, plus the low-rank
    term through B then A, plus entry `o` of the bias row. -/
def rowsOut (X : (⟨2, ![8192, 3072]⟩ : Shape).Idx → EReal) (Wd : (⟨2, ![3072, 3072]⟩ : Shape).Idx → EReal)
    (A : (⟨2, ![3072, 64]⟩ : Shape).Idx → EReal) (B : (⟨2, ![64, 3072]⟩ : Shape).Idx → EReal)
    (b2 : (⟨2, ![1, 3072]⟩ : Shape).Idx → EReal) (p : Fin 8192) (o : Fin 3072) : EReal :=
  ((∑ k : Fin 3072, X (ix2 p k) * Wd (ix2 o k))
    + ∑ r : Fin 64, (∑ k : Fin 3072, X (ix2 p k) * B (ix2 r k)) * A (ix2 o r)) + b2 (ix2 (0 : Fin 1) o)

/-- The layer over the arguments as given: the scale applied after the sum over the input channels. -/
def result (x : (⟨3, ![2, 4096, 3072]⟩ : Shape).Idx → EReal) (w : (⟨2, ![3072, 3072]⟩ : Shape).Idx → EReal)
    (s : (⟨2, ![3072, 1]⟩ : Shape).Idx → EReal) (A : (⟨2, ![3072, 64]⟩ : Shape).Idx → EReal)
    (B : (⟨2, ![64, 3072]⟩ : Shape).Idx → EReal) (bias : (⟨1, ![3072]⟩ : Shape).Idx → EReal) :
    (⟨3, ![2, 4096, 3072]⟩ : Shape).Idx → EReal := fun i =>
  ((∑ k : Fin 3072, x (ix3 (i 0) (i 1) k) * w (ix2 (i 2) k)) * s (ix2 (i 2) (0 : Fin 1))
    + ∑ r : Fin 64, (∑ k : Fin 3072, x (ix3 (i 0) (i 1) k) * B (ix2 r k)) * A (ix2 (i 2) r)) + bias (ix1 (i 2))

/-- A finite factor moves out of a finite sum of products of finite terms:
    sum of x * (w * s) = (sum of x * w) * s. -/
theorem scaled_sum {ι : Type*} [Fintype ι] (x w : ι → EReal) (s : EReal) (hx : ∀ k, IsFin (x k)) (hw : ∀ k, IsFin (w k))
    (hs : IsFin s) : ∑ k, x k * (w k * s) = (∑ k, x k * w k) * s := by
  rw [sum_mul_of_isFin Finset.univ (fun k => x k * w k) s (fun k => (hx k).mul (hw k)) hs]
  exact Finset.sum_congr rfl fun k _ => (mul_assoc _ _ _).symm

/-- The flattened, pre-scaled form is the layer: when X is x flattened, Wd is w scaled row by row, b2 is the bias as
    a row, and x, w, s are finite, row b*4096 + t of `rowsOut` at channel o is `result` at (b, t, o). -/
theorem rowsOut_eq_result (x : (⟨3, ![2, 4096, 3072]⟩ : Shape).Idx → EReal) (w : (⟨2, ![3072, 3072]⟩ : Shape).Idx → EReal)
    (s : (⟨2, ![3072, 1]⟩ : Shape).Idx → EReal) (A : (⟨2, ![3072, 64]⟩ : Shape).Idx → EReal)
    (B : (⟨2, ![64, 3072]⟩ : Shape).Idx → EReal) (bias : (⟨1, ![3072]⟩ : Shape).Idx → EReal)
    (X : (⟨2, ![8192, 3072]⟩ : Shape).Idx → EReal) (Wd : (⟨2, ![3072, 3072]⟩ : Shape).Idx → EReal)
    (b2 : (⟨2, ![1, 3072]⟩ : Shape).Idx → EReal)
    (hX : ∀ (b : Fin 2) (t : Fin 4096) (row : Fin 8192), row.val = b.val * 4096 + t.val →
      ∀ k : Fin 3072, X (ix2 row k) = x (ix3 b t k))
    (hW : ∀ (o k : Fin 3072), Wd (ix2 o k) = w (ix2 o k) * s (ix2 o (0 : Fin 1)))
    (hb : ∀ o : Fin 3072, b2 (ix2 (0 : Fin 1) o) = bias (ix1 o))
    (hx : ∀ i, IsFin (x i)) (hw : ∀ i, IsFin (w i)) (hs : ∀ i, IsFin (s i))
    (b : Fin 2) (t : Fin 4096) (o : Fin 3072) (row : Fin 8192) (hrow : row.val = b.val * 4096 + t.val) :
    rowsOut X Wd A B b2 row o = result x w s A B bias (ix3 b t o) := by
  unfold rowsOut result
  simp only [hX b t row hrow, hW, hb]
  rw [scaled_sum (fun k => x (ix3 b t k)) (fun k => w (ix2 o k)) (s (ix2 o (0 : Fin 1))) (fun k => hx _) (fun k => hw _) (hs _)]

end Cert.TernaryLora

end
-- ==== Proof.Entry.lean ====
/-
  What the tiled computation finds in its five operand arrays, entry by entry.

  Before the tiles run, the program prepares its operands from the arguments:
    * the activations x of shape [2, 4096, 3072] are flattened to [8192, 3072]: row b*4096 + t is x(b, t, ·);
    * the integer weights are converted to reals and each row o is multiplied by the scale s(o, 0);
    * A and B are passed on as they are;
    * the bias of length 3072 becomes one row of shape [1, 3072].
  The narrowings to a shorter float format in between are the identity on extended reals.
-/
import proofs.«126380_j78589311582693_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.TernaryLora

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The flattened activations, as an array. -/
theorem entry_x (c : Dev nD) :
    (V m c main_v8 : S8192x3072.Idx → EReal)
      = truncf (F := Ideal) .bf16 (shapeCast S8192x3072 (m ((c : Thread nD τ).loc main_arg0))
          Facts₀.shapeCasts_S2x4096x3072_S8192x3072) Facts₀.bitsLt_bf16_f32 := by
  show StableHlo.after hostOps0 (fun b => m (c, b)) (Proc.devRef .tc main_v8) = _
  after_results <;> rfl

/-- Row b*4096 + t of the flattened activations is x(b, t, ·). -/
theorem entry_x_apply (c : Dev nD) (b : Fin 2) (t : Fin 4096) (row : Fin 8192) (hrow : row.val = b.val * 4096 + t.val)
    (k : Fin 3072) :
    (V m c main_v8 : S8192x3072.Idx → EReal) (ix2 row k)
      = (m ((c : Thread nD τ).loc main_arg0) : S2x4096x3072.Idx → EReal) (ix3 b t k) := by
  rw [entry_x, truncf_apply]
  exact shapeCast_apply _ _ _ _ (by
    show (S2x4096x3072.rowMajor (ix3 b t k)).val = (S8192x3072.rowMajor (ix2 row k)).val
    rw [Shape.rowMajor_val_three, Shape.rowMajor_val_two]
    show (b.val * 4096 + t.val) * 3072 + k.val = row.val * 3072 + k.val
    rw [hrow])

/-- The scaled weights, as an array. -/
theorem entry_w (c : Dev nD) :
    (V m c main_v3 : S3072x3072.Idx → EReal)
      = truncf (F := Ideal) .bf16 (mulf (sitofp (F := Ideal) .f32 (m ((c : Thread nD τ).loc main_arg1)))
          (broadcastInDim S3072x3072 ![0, 1] Facts₀.bcast_S3072x1_S3072x3072_0_1 (m ((c : Thread nD τ).loc main_arg2))))
          Facts₀.bitsLt_bf16_f32 := by
  show StableHlo.after hostOps0 (fun b => m (c, b)) (Proc.devRef .tc main_v3) = _
  after_results <;> rfl

/-- Entry (o, k) of the scaled weights is the weight (o, k), as a real, times the scale of row o. -/
theorem entry_w_apply (c : Dev nD) (o k : Fin 3072) :
    (V m c main_v3 : S3072x3072.Idx → EReal) (ix2 o k)
      = (sitofp (F := Ideal) .f32 (m ((c : Thread nD τ).loc main_arg1)) : S3072x3072.Idx → EReal) (ix2 o k)
        * (m ((c : Thread nD τ).loc main_arg2) : S3072x1.Idx → EReal) (ix2 o (0 : Fin 1)) := by
  rw [entry_w, truncf_apply, mulf_apply]
  refine congrArg (_ * ·) ?_
  refine broadcastInDim_apply ![0, 1] Facts₀.bcast_S3072x1_S3072x3072_0_1 _ (ix2 o k) (ix2 o (0 : Fin 1)) fun a => ?_
  match a with
  | ⟨0, _⟩ => show o.val = if (3072 : Nat) = 1 then 0 else o.val; rw [if_neg (by decide)]
  | ⟨1, _⟩ => show 0 = if (1 : Nat) = 1 then 0 else k.val; rw [if_pos rfl]

/-- A is passed on as it is. -/
theorem entry_A (c : Dev nD) :
    (V m c main_v4 : S3072x64.Idx → EReal) = m ((c : Thread nD τ).loc main_arg3) := by
  show StableHlo.after hostOps0 (fun b => m (c, b)) (Proc.devRef .tc main_v4) = _
  after_results <;> rfl

/-- B is passed on as it is. -/
theorem entry_B (c : Dev nD) :
    (V m c main_v5 : S64x3072.Idx → EReal) = m ((c : Thread nD τ).loc main_arg4) := by
  show StableHlo.after hostOps0 (fun b => m (c, b)) (Proc.devRef .tc main_v5) = _
  after_results <;> rfl

/-- The bias as one row, as an array. -/
theorem entry_bias (c : Dev nD) :
    (V m c main_v6 : S1x3072.Idx → EReal)
      = shapeCast S1x3072 (m ((c : Thread nD τ).loc main_arg5)) Facts₀.shapeCasts_S3072_S1x3072 := by
  show StableHlo.after hostOps0 (fun b => m (c, b)) (Proc.devRef .tc main_v6) = _
  after_results <;> rfl

/-- Entry (0, o) of the bias row is entry o of the bias. -/
theorem entry_bias_apply (c : Dev nD) (o : Fin 3072) :
    (V m c main_v6 : S1x3072.Idx → EReal) (ix2 (0 : Fin 1) o)
      = (m ((c : Thread nD τ).loc main_arg5) : S3072.Idx → EReal) (ix1 o) := by
  rw [entry_bias]
  exact shapeCast_a_1a_apply _ _ 0 o

end Cert.TernaryLora

end
-- ==== Proof.LibRowOps.lean ====
/-
  Rows against rows: reading a matrix product that contracts the LAST axis of both operands, and a sum over the
  last axis of a matrix, at an index — on the extended reals, where a product is the exact sum of products.

  For x of shape [a, n] and w of shape [b, n], the product contracting axis 1 of both has shape [a, b], and its entry
  (p, e) is the sum over k < n of x(p, k) * w(e, k): the inner product of row p of x with row e of w. The kernel's
  matrix-unit product into a zero accumulator and the host's general dot product are both that sum. A sum over
  the last axis of an [a, b] array at row p is the sum over k < b of the entries (p, k), preceded on the host by
  the initial value.
-/
import Idealize.ShloMosaic.PureOps.Ideal.Laws
import Idealize.ShloMosaic.Lib.ValueIdx

noncomputable section

namespace Cert.RowOps

open Idealize.ShloMosaic Idealize.ShloMosaic.ValueIdx

variable {a b n : ℕ}

/-- The dimension numbers "contract axis 1 of both operands, keep axis 0 of each, no batch axis". -/
abbrev rowsDims (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, n]⟩ ⟨2, ![b, n]⟩ ⟨2, ![a, b]⟩ [1] [1] [0] [0] [] [])

theorem contr_rank : (rowsDims wf).contr.rank = 1 := rfl
theorem contr_size : (rowsDims wf).contr.size ⟨0, Nat.one_pos⟩ = n := rfl

/-- The left operand's index at output (p, e) and contraction index q: row p. -/
theorem lhs_row (i : (⟨2, ![a, b]⟩ : Shape).Idx) (q : (rowsDims wf).contr.Idx) :
    ((rowsDims wf).lhsIdx i q 0).val = (i 0).val := by
  unfold DotDims.lhsIdx
  rw [dif_neg (show ¬(0 : Fin (⟨2, ![a, n]⟩ : Shape).rank) ∈ (rowsDims wf).lhsBatch from List.not_mem_nil),
    dif_pos (show (0 : Fin (⟨2, ![a, n]⟩ : Shape).rank) ∈ (rowsDims wf).lhsNonContracting from List.mem_singleton.mpr rfl)]
  rfl
/-- … column q. -/
theorem lhs_col (i : (⟨2, ![a, b]⟩ : Shape).Idx) (q : (rowsDims wf).contr.Idx) :
    ((rowsDims wf).lhsIdx i q 1).val = (q ⟨0, Nat.one_pos⟩).val :=
  (rowsDims wf).lhsIdx_val_of_single rfl i q
/-- The right operand's: row e, -/
theorem rhs_row (i : (⟨2, ![a, b]⟩ : Shape).Idx) (q : (rowsDims wf).contr.Idx) :
    ((rowsDims wf).rhsIdx i q 0).val = (i 1).val := by
  unfold DotDims.rhsIdx
  rw [dif_neg (show ¬(0 : Fin (⟨2, ![b, n]⟩ : Shape).rank) ∈ (rowsDims wf).rhsBatch from List.not_mem_nil),
    dif_pos (show (0 : Fin (⟨2, ![b, n]⟩ : Shape).rank) ∈ (rowsDims wf).rhsNonContracting from List.mem_singleton.mpr rfl)]
  rfl
/-- column q. -/
theorem rhs_col (i : (⟨2, ![a, b]⟩ : Shape).Idx) (q : (rowsDims wf).contr.Idx) :
    ((rowsDims wf).rhsIdx i q 1).val = (q ⟨0, Nat.one_pos⟩).val :=
  (rowsDims wf).rhsIdx_val_of_single rfl i q

/-- The contraction's sum at (p, e), re-indexed by the one contracted coordinate: the inner product of row p of x with
    row e of w. -/
theorem contraction_rows (x : (⟨2, ![a, n]⟩ : Shape).Idx → EReal) (w : (⟨2, ![b, n]⟩ : Shape).Idx → EReal) (p : Fin a) (e : Fin b) :
    ∑ q : (rowsDims wf).contr.Idx, x ((rowsDims wf).lhsIdx (ix2 p e) q) * w ((rowsDims wf).rhsIdx (ix2 p e) q)
      = ∑ k : Fin n, x (ix2 p k) * w (ix2 e k) := by
  rw [← Equiv.sum_comp (contrEquiv1 (rowsDims wf) n rfl rfl).symm]
  refine Finset.sum_congr rfl fun k _ => ?_
  have hk := contrEquiv1_symm_val (rowsDims wf) n rfl rfl k
  have el : (rowsDims wf).lhsIdx (ix2 p e) ((contrEquiv1 (rowsDims wf) n rfl rfl).symm k) = ix2 p k := funext fun ax => Fin.ext (by
    match ax with
    | ⟨0, _⟩ => exact lhs_row wf _ _
    | ⟨1, _⟩ => exact (lhs_col wf _ _).trans hk)
  have er : (rowsDims wf).rhsIdx (ix2 p e) ((contrEquiv1 (rowsDims wf) n rfl rfl).symm k) = ix2 e k := funext fun ax => Fin.ext (by
    match ax with
    | ⟨0, _⟩ => exact rhs_row wf _ _
    | ⟨1, _⟩ => exact (rhs_col wf _ _).trans hk)
  rw [el, er]

/-- The kernel's matrix-unit product into the zero accumulator, at (p, e). -/
theorem matmul_rows_apply (prec : Option ContractPrecision) (x : FVec Ideal ⟨2, ![a, n]⟩ .f32) (w : FVec Ideal ⟨2, ![b, n]⟩ .f32)
    (p : Fin a) (e : Fin b) :
    FloatOps.matmul (rowsDims wf) prec x w (constant ⟨2, ![a, b]⟩ .f32 0x00000000#32) (ix2 p e)
      = ∑ k : Fin n, x (ix2 p k) * w (ix2 e k) :=
  (Ideal.matmul_constant_zero_apply (rowsDims wf) prec x w (ix2 p e)).trans (contraction_rows wf x w p e)

/-- The host's general dot product, at (p, e). -/
theorem dotGeneral_rows_apply (prec : Option ContractPrecision) (sched : HostSchedule) (x : FVec Ideal ⟨2, ![a, n]⟩ .f32)
    (w : FVec Ideal ⟨2, ![b, n]⟩ .f32) (p : Fin a) (e : Fin b) :
    FloatOps.dotGeneral (rowsDims wf) prec sched x w (ix2 p e) = ∑ k : Fin n, x (ix2 p k) * w (ix2 e k) :=
  (Ideal.dotGeneral_apply (rowsDims wf) prec sched x w (ix2 p e)).trans (contraction_rows wf x w p e)

/-- A kernel's sum over the last axis of an [a, b] vector, at row p: the sum of the row's entries. -/
theorem laneSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The host's sum over the last axis of an [a, b] array from the initial value `init`, at row p. -/
theorem hostRowSum_apply (src : FVec Ideal ⟨2, ![a, b]⟩ .f32) (h' : Shape.ReducesTo ⟨2, ![a, b]⟩ [1] ⟨1, ![a]⟩)
    (h : Shape.Reduces ⟨2, ![a, b]⟩ [1] ⟨1, ![a]⟩) (init : EReal) (p : Fin a) :
    Ideal.hostReduceAdd h' src init (ix1 p) = init + ∑ k : Fin b, src (ix2 p k) := by
  refine (Ideal.hostReduceAdd_single h' h src init (ix1 p)).trans ?_
  refine congrArg (init + ·) (Finset.sum_congr rfl fun k _ => congrArg src (funext fun ax => Fin.ext ?_))
  match ax with
  | ⟨0, _⟩ => rfl
  | ⟨1, _⟩ => rfl

end Cert.RowOps

end
-- ==== Proof.LibRowOpsFormats.lean ====
/-
  Rows against rows, whatever the operands' float formats.

  A matrix-unit product that contracts the last axis of an [a, n] and a [b, n] operand into a zero accumulator is, on the
  extended reals, the sum over k of x(p,k) * w(e,k) at (p, e) — also when the two operands are held in shorter float
  formats than the accumulator (a change of format is the identity there). The dimension record may be any record equal
  to "contract axis 1 of both, keep axis 0 of each, no batch axis".
-/
import proofs.«126380_j78589311582693_1_alg».proof.Proof.LibRowOps
import Idealize.ShloMosaic.PureOps.Ideal.Laws
import Idealize.ShloMosaic.Lib.ValueIdx

noncomputable section

open scoped BigOperators

namespace Cert.RowOps

open Idealize.ShloMosaic Idealize.ShloMosaic.ValueIdx

/-- A product contracting the last axis of an [a, n] and a [b, n] operand into the zero accumulator, whatever the
    operands' float formats, is at (p, e) the sum over k of x(p,k) * w(e,k). -/
theorem rows_matmul {a b n : ℕ} {φ₁ φ₂ : FTy}
    (wf : DotDims.WF ⟨2, ![a, n]⟩ ⟨2, ![b, n]⟩ ⟨2, ![a, b]⟩ [1] [1] [0] [0] [] [])
    (d : DotDims ⟨2, ![a, n]⟩ ⟨2, ![b, n]⟩ ⟨2, ![a, b]⟩) (hd : d = rowsDims wf)
    (x : FVec Ideal ⟨2, ![a, n]⟩ φ₁) (w : FVec Ideal ⟨2, ![b, n]⟩ φ₂) (p : Fin a) (e : Fin b) :
    FloatOps.matmul d none x w (constant ⟨2, ![a, b]⟩ .f32 0x00000000#32) (ix2 p e)
      = ∑ k : Fin n, x (ix2 p k) * w (ix2 e k) := by
  subst hd
  exact (Ideal.matmul_constant_zero_apply (rowsDims wf) none x w (ix2 p e)).trans (contraction_rows wf x w p e)

end Cert.RowOps

end
-- ==== Proof.Payload.lean ====
/-
  One tile of the layer, read entry by entry.

  At a grid point the kernel holds 512 rows of the flattened activations (x0), 1024 rows of the scaled weights (x1),
  the matching 1024 rows of A (x2), all of B (x3) and 1024 entries of the bias as one row (x4), and stores the
  512 x 1024 tile whose entry (p, q) is

      sum over k of x0(p,k) * x1(q,k)  +  sum over r of (sum over k of x0(p,k) * x3(r,k)) * x2(q,r)  +  x4(0,q).

  Each of the three products contracts the last axis of both operands into a zero accumulator, so it is the plain
  sum of products of a row with a row; the narrowing of the intermediate product to a shorter float format is the
  identity on extended reals; the bias row is repeated down the 512 rows.
-/
import proofs.«126380_j78589311582693_1_alg».proof.Proof.Gen.KernelIdeal.Skeleton
import proofs.«126380_j78589311582693_1_alg».proof.Proof.LibRowOps
import proofs.«126380_j78589311582693_1_alg».proof.Proof.LibRowOpsFormats
import Idealize.ShloMosaic.Lib.Pipeline.Value
import Idealize.ShloMosaic.Lib.ValueLayout

noncomputable section

open scoped BigOperators

namespace Cert.TernaryLora

open Idealize.ShloMosaic Idealize.ShloMosaic.ValueIdx Cert.KernelIdeal Cert.KernelIdeal.Gen Cert.RowOps

/-- The stored tile at (p, q). -/
theorem tile_apply (x0 : FVec Ideal S512x3072 .bf16) (x1 : FVec Ideal S1024x3072 .bf16) (x3 : FVec Ideal S64x3072 .bf16)
    (x2 : FVec Ideal S1024x64 .bf16) (x4 : FVec Ideal S1x1024 .f32) (p : Fin 512) (q : Fin 1024) :
    k0_pay1 (F := Ideal) x0 x1 x3 x2 x4 (ix2 p q)
      = ((∑ k : Fin 3072, x0 (ix2 p k) * x1 (ix2 q k))
          + ∑ r : Fin 64, (∑ k : Fin 3072, x0 (ix2 p k) * x3 (ix2 r k)) * x2 (ix2 q r)) + x4 (ix2 (0 : Fin 1) q) := by
  unfold k0_pay1
  simp only [shapeCast_self, matmul]
  rw [addf_apply, addf_apply]
  rw [broadcastTo_1b_ab_apply]
  rw [rows_matmul Facts₀.dot_S512x3072_S1024x3072_S512x1024_1_1_0_0_n_n_wf
      dot_S512x3072_S1024x3072_S512x1024_1_1_0_0_n_n rfl,
    rows_matmul Facts₀.dot_S512x64_S1024x64_S512x1024_1_1_0_0_n_n_wf
      dot_S512x64_S1024x64_S512x1024_1_1_0_0_n_n rfl]
  refine congrArg (fun z => ((∑ k : Fin 3072, x0 (ix2 p k) * x1 (ix2 q k)) + z) + x4 (ix2 (0 : Fin 1) q)) ?_
  refine Finset.sum_congr rfl fun r _ => ?_
  rw [truncf_apply, rows_matmul Facts₀.dot_S512x3072_S64x3072_S512x64_1_1_0_0_n_n_wf
      dot_S512x3072_S64x3072_S512x64_1_1_0_0_n_n rfl]

/-- The stored tile at any index of the tile. -/
theorem tile_at (x0 : FVec Ideal S512x3072 .bf16) (x1 : FVec Ideal S1024x3072 .bf16) (x3 : FVec Ideal S64x3072 .bf16)
    (x2 : FVec Ideal S1024x64 .bf16) (x4 : FVec Ideal S1x1024 .f32) (j : S512x1024.Idx) :
    k0_pay1 (F := Ideal) x0 x1 x3 x2 x4 j
      = ((∑ k : Fin 3072, x0 (ix2 (j 0) k) * x1 (ix2 (j 1) k))
          + ∑ r : Fin 64, (∑ k : Fin 3072, x0 (ix2 (j 0) k) * x3 (ix2 r k)) * x2 (ix2 (j 1) r))
        + x4 (ix2 (0 : Fin 1) (j 1)) := by
  obtain ⟨p, q, rfl⟩ : ∃ (p : Fin 512) (q : Fin 1024), j = ix2 p q := ⟨j 0, j 1, eq_ix2 j⟩
  exact tile_apply x0 x1 x3 x2 x4 p q

end Cert.TernaryLora

end
-- ==== Proof.Blocks.lean ====
/-
  From tiles to the whole array.

  The output of shape [8192, 3072] is cut into 16 x 3 tiles of shape [512, 1024]; grid point (i, j) computes tile
  (i, j) from rows 512*i … 512*i + 511 of the flattened activations, rows 1024*j … 1024*j + 1023 of the scaled
  weights and of A, all of B, and entries 1024*j … 1024*j + 1023 of the bias row. So every tile is the restriction
  of ONE function of the five operand arrays — `rowsOut` at (row, channel) — and the tiles cover the array: after
  all 48 points the array holds that function.
-/
import proofs.«126380_j78589311582693_1_alg».proof.Proof.Gen.KernelIdeal.Frame
import proofs.«126380_j78589311582693_1_alg».proof.Proof.Spec
import proofs.«126380_j78589311582693_1_alg».proof.Proof.Payload
import Idealize.ShloMosaic.Lib.Pipeline.Value
import Idealize.ShloMosaic.Lib.ValueIdx

set_option maxRecDepth 16384

noncomputable section

open scoped BigOperators

namespace Cert.TernaryLora

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem offsets_zero : (![0, 0] : Fin 2 → Nat) = fun _ => 0 := funext fun a => by fin_cases a <;> rfl

/-- The array the tiles fill: `rowsOut` of the five operand arrays as the tiled computation finds them. -/
def tiled (c : Dev nD) : S8192x3072.Idx → EReal := fun i =>
  rowsOut (V m c main_v8) (V m c main_v3) (V m c main_v4) (V m c main_v5) (V m c main_v6) (i 0) (i 1)

/-- Where each operand's block sits relative to the output tile (i, j), over the 48 points: activations at block row
    i; scaled weights and A at block row j; B whole; the bias row at block column j; and 0 ≤ i ≤ 15, 0 ≤ j ≤ 2. -/
theorem block_positions : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = win0_5.index t (1 : Fin 2)
    ∧ win0_5.index t (0 : Fin 2) ≤ 15 ∧ win0_5.index t (1 : Fin 2) ≤ 2 :=
  (by decide +kernel : ∀ t : Fin grid0.N, _)

/-- Every tile position (i, j) is some point's. -/
theorem every_tile : ∀ (q0 : Fin 16) (q1 : Fin 3), ∃ t : Fin cfg0.N, win0_5.index t = ![q0.val, q1.val] :=
  (by decide +kernel : ∀ (q0 : Fin 16) (q1 : Fin 3), ∃ t : Fin grid0.N, win0_5.index t = ![q0.val, q1.val])

/-! ## Each operand's block, read where the output tile says -/

/-- Row p of the activations' block is row 512*i + p of the flattened activations. -/
theorem block_x (c : Dev nD) (t : Fin cfg0.N) (p : Fin 512) (k : Fin 3072) (row : Fin 8192)
    (hrow : row.val = win0_5.index t (0 : Fin 2) * 512 + p.val) :
    iblk m c 0 t (ix2 p k) = (V m c main_v8 : S8192x3072.Idx → EReal) (ix2 row k) := by
  obtain ⟨e0, e1, -⟩ := block_positions t
  show V m c main_v8 (((cfg0.win 0).blk t).view.emb (ix2 p k)) = V m c main_v8 (ix2 row k)
  have h : ((cfg0.win 0).blk t).view.emb (ix2 p k) = ix2 row k := by
    funext a; apply Fin.ext
    match a with
    | ⟨0, _⟩ => show win0_0.index t (0 : Fin 2) * 512 + 1 * p.val = row.val; omega
    | ⟨1, _⟩ => show win0_0.index t (1 : Fin 2) * 3072 + 1 * k.val = k.val; omega
  rw [h]

/-- Row q of the scaled weights' block is row 1024*j + q of the scaled weights. -/
theorem block_w (c : Dev nD) (t : Fin cfg0.N) (q : Fin 1024) (k : Fin 3072) (col : Fin 3072)
    (hcol : col.val = win0_5.index t (1 : Fin 2) * 1024 + q.val) :
    iblk m c 1 t (ix2 q k) = (V m c main_v3 : S3072x3072.Idx → EReal) (ix2 col k) := by
  obtain ⟨-, -, e0, e1, -⟩ := block_positions t
  show V m c main_v3 (((cfg0.win 1).blk t).view.emb (ix2 q k)) = V m c main_v3 (ix2 col k)
  have h : ((cfg0.win 1).blk t).view.emb (ix2 q k) = ix2 col k := by
    funext a; apply Fin.ext
    match a with
    | ⟨0, _⟩ => show win0_1.index t (0 : Fin 2) * 1024 + 1 * q.val = col.val; omega
    | ⟨1, _⟩ => show win0_1.index t (1 : Fin 2) * 3072 + 1 * k.val = k.val; omega
  rw [h]

/-- Row q of A's block is row 1024*j + q of A. -/
theorem block_A (c : Dev nD) (t : Fin cfg0.N) (q : Fin 1024) (r : Fin 64) (col : Fin 3072)
    (hcol : col.val = win0_5.index t (1 : Fin 2) * 1024 + q.val) :
    iblk m c 2 t (ix2 q r) = (V m c main_v4 : S3072x64.Idx → EReal) (ix2 col r) := by
  obtain ⟨-, -, -, -, e0, e1, -⟩ := block_positions t
  show V m c main_v4 (((cfg0.win 2).blk t).view.emb (ix2 q r)) = V m c main_v4 (ix2 col r)
  have h : ((cfg0.win 2).blk t).view.emb (ix2 q r) = ix2 col r := by
    funext a; apply Fin.ext
    match a with
    | ⟨0, _⟩ => show win0_2.index t (0 : Fin 2) * 1024 + 1 * q.val = col.val; omega
    | ⟨1, _⟩ => show win0_2.index t (1 : Fin 2) * 64 + 1 * r.val = r.val; omega
  rw [h]

/-- B's block is all of B. -/
theorem block_B (c : Dev nD) (t : Fin cfg0.N) (r : Fin 64) (k : Fin 3072) :
    iblk m c 3 t (ix2 r k) = (V m c main_v5 : S64x3072.Idx → EReal) (ix2 r k) := by
  obtain ⟨-, -, -, -, -, -, e0, e1, -⟩ := block_positions t
  show V m c main_v5 (((cfg0.win 3).blk t).view.emb (ix2 r k)) = V m c main_v5 (ix2 r k)
  have h : ((cfg0.win 3).blk t).view.emb (ix2 r k) = ix2 r k := by
    funext a; apply Fin.ext
    match a with
    | ⟨0, _⟩ => show win0_3.index t (0 : Fin 2) * 64 + 1 * r.val = r.val; omega
    | ⟨1, _⟩ => show win0_3.index t (1 : Fin 2) * 3072 + 1 * k.val = k.val; omega
  rw [h]

/-- Entry q of the bias row's block is entry 1024*j + q of the bias row. -/
theorem block_bias (c : Dev nD) (t : Fin cfg0.N) (q : Fin 1024) (col : Fin 3072)
    (hcol : col.val = win0_5.index t (1 : Fin 2) * 1024 + q.val) :
    iblk m c 4 t (ix2 (0 : Fin 1) q) = (V m c main_v6 : S1x3072.Idx → EReal) (ix2 (0 : Fin 1) col) := by
  obtain ⟨-, -, -, -, -, -, -, -, e0, e1, -⟩ := block_positions t
  show V m c main_v6 (((cfg0.win 4).blk t).view.emb (ix2 (0 : Fin 1) q)) = V m c main_v6 (ix2 (0 : Fin 1) col)
  have h : ((cfg0.win 4).blk t).view.emb (ix2 (0 : Fin 1) q) = ix2 (0 : Fin 1) col := by
    funext a; apply Fin.ext
    match a with
    | ⟨0, _⟩ => show win0_4.index t (0 : Fin 2) * 1 + 1 * 0 = 0; omega
    | ⟨1, _⟩ => show win0_4.index t (1 : Fin 2) * 1024 + 1 * q.val = col.val; omega
  rw [h]

/-! ## What a point writes back -/

/-- The tile point `t` writes back is block `t` of `tiled`. -/
theorem flushed_eq (c : Dev nD) (t : Fin cfg0.N) :
    (dats m 0 c).flushed 5 t = ((cfg0.win 5).blk t).view.read (Elt Ideal) (tiled m c) := by
  show (cfg0.win 5).cut (grid0.coords t) ((dats m 0 c).after 5 t) = _
  rw [after0_5]
  unfold out0_5
  rw [View.canon_unit_zero offsets_zero]
  simp only [View.ld_unit_zero (S := S512x3072) offsets_zero, View.ld_unit_zero (S := S1024x3072) offsets_zero,
    View.ld_unit_zero (S := S64x3072) offsets_zero, View.ld_unit_zero (S := S1024x64) offsets_zero,
    View.ld_unit_zero (S := S1x1024) offsets_zero]
  funext j
  have hrow : ((((cfg0.win 5).blk t).view.emb j) 0).val = win0_5.index t (0 : Fin 2) * 512 + (j 0).val := by
    show win0_5.index t (0 : Fin 2) * 512 + 1 * (j 0).val = _; omega
  have hcol : ((((cfg0.win 5).blk t).view.emb j) 1).val = win0_5.index t (1 : Fin 2) * 1024 + (j 1).val := by
    show win0_5.index t (1 : Fin 2) * 1024 + 1 * (j 1).val = _; omega
  show k0_pay1 (F := Ideal) (iblk m c 0 t) (iblk m c 1 t) (iblk m c 3 t) (iblk m c 2 t) (iblk m c 4 t) j
    = rowsOut (V m c main_v8) (V m c main_v3) (V m c main_v4) (V m c main_v5) (V m c main_v6)
        ((((cfg0.win 5).blk t).view.emb j) 0) ((((cfg0.win 5).blk t).view.emb j) 1)
  refine (tile_at (iblk m c 0 t) (iblk m c 1 t) (iblk m c 3 t) (iblk m c 2 t) (iblk m c 4 t) j).trans ?_
  unfold rowsOut
  refine congrArg₂ (· + ·) (congrArg₂ (· + ·) (Finset.sum_congr rfl fun k _ => ?_) (Finset.sum_congr rfl fun r _ => ?_)) ?_
  · rw [block_x m c t (j 0) k _ hrow, block_w m c t (j 1) k _ hcol]
  · refine congrArg₂ (· * ·) (Finset.sum_congr rfl fun k _ => ?_) ?_
    · rw [block_x m c t (j 0) k _ hrow, block_B m c t r k]
    · exact block_A m c t (j 1) r _ hcol
  · exact block_bias m c t (j 1) _ hcol

/-! ## The tiles cover the array -/

/-- An index is in point `t`'s tile iff each coordinate is in the tile's range on its axis. -/
theorem mem_tile (t : Fin cfg0.N) (i : S8192x3072.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v9).slice (win0_5.rect t)).set ↔ _
  rw [View.set_slice_whole, Rect.mem_set_unit]
  exact Iff.rfl

/-- Index (row, channel) is in the tile (row / 512, channel / 1024), which some point writes back. -/
theorem covered (i : S8192x3072.Idx) :
    ∃ t : Fin cfg0.N, (cfg0.win 5).flush t = true ∧ i ∈ ((cfg0.win 5).blk t).view.set := by
  have hi0 : (i 0).val < 8192 := (i 0).isLt
  have hi1 : (i 1).val < 3072 := (i 1).isLt
  obtain ⟨t, ht⟩ := every_tile ⟨(i 0).val / 512, by omega⟩ ⟨(i 1).val / 1024, by omega⟩
  have q0 : win0_5.index t (0 : Fin 2) = (i 0).val / 512 := congrFun ht 0
  have q1 : win0_5.index t (1 : Fin 2) = (i 1).val / 1024 := congrFun ht 1
  refine ⟨t, flush0_5 t, ?_⟩
  rw [mem_tile]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 1024 ≤ (i 1).val ∧ (i 1).val < win0_5.index t (1 : Fin 2) * 1024 + 1024
    omega

/-- After all the points the output array holds `tiled`. -/
theorem array_eq (c : Dev nD) : (dats m 0 c).arrAt 5 cfg0.N = tiled m c :=
  (dats m 0 c).arrAt_eq_of_cover 5 (tiled m c) (fun t _ => flushed_eq m c t) (fun i => covered i)

end Cert.TernaryLora

end
-- ==== Proof.KernelRun.lean ====
/-
  The kernel's result is the layer.

  After the tiles have run, the [8192, 3072] array holds `rowsOut` of the prepared operands (row b*4096 + t, channel
  o); the last step reads it back as [2, 4096, 3072], so entry (b, t, o) of the result is entry (b*4096 + t, o) of that
  array. With the prepared operands read back to the arguments, and the activations, the weights (integers read as
  reals) and the scale all finite, this is `result` of the arguments at (b, t, o).
-/
import proofs.«126380_j78589311582693_1_alg».proof.Proof.Gen.KernelIdeal.Frame
import proofs.«126380_j78589311582693_1_alg».proof.Proof.Spec
import proofs.«126380_j78589311582693_1_alg».proof.Proof.Entry
import proofs.«126380_j78589311582693_1_alg».proof.Proof.Blocks
import proofs.«126380_j78589311582693_1_alg».proof.Proof.LibERealSums
import Idealize.ShloMosaic.Lib.Pipeline.Value
import Idealize.ShloMosaic.Lib.ValueIdx
import Idealize.ShloMosaic.Lib.StableHlo.Run

set_option maxRecDepth 16384

noncomputable section

namespace Cert.TernaryLora

open Idealize.ShloMosaic Idealize.ShloMosaic.TcCoe Idealize.SL.Sem Idealize.ShloMosaic.ValueIdx
open Cert.KernelIdeal Cert.KernelIdeal.Gen Cert.LibERealSums

variable (m : (ℓ : Loc nD τ sig) → Buf (Elt Ideal) ℓ) (ρ : Dev nD → PrngReg)

/-- The layer of core `c`'s argument arrays, the integer weights read as reals. -/
def layer (c : Dev nD) : S2x4096x3072.Idx → EReal :=
  result (m ((c : Thread nD τ).loc main_arg0)) (sitofp (F := Ideal) .f32 (m ((c : Thread nD τ).loc main_arg1)))
    (m ((c : Thread nD τ).loc main_arg2)) (m ((c : Thread nD τ).loc main_arg3)) (m ((c : Thread nD τ).loc main_arg4))
    (m ((c : Thread nD τ).loc main_arg5))

/-- Row b*4096 + t, channel o of the tiled array is the layer at (b, t, o), when the activations and the scale are
    finite (an integer read as a real always is). -/
theorem tiled_eq_layer (c : Dev nD)
    (hx : ∀ i, IsFin ((m ((c : Thread nD τ).loc main_arg0) : S2x4096x3072.Idx → EReal) i))
    (hs : ∀ i, IsFin ((m ((c : Thread nD τ).loc main_arg2) : S3072x1.Idx → EReal) i))
    (b : Fin 2) (t : Fin 4096) (o : Fin 3072) (row : Fin 8192) (hrow : row.val = b.val * 4096 + t.val) :
    tiled m c (ix2 row o) = layer m c (ix3 b t o) := by
  unfold tiled layer
  rw [entry_A, entry_B]
  exact rowsOut_eq_result _ _ _ _ _ _ _ _ _ (fun b t row hrow k => entry_x_apply m c b t row hrow k)
    (fun o k => entry_w_apply m c o k) (fun o => entry_bias_apply m c o) hx (fun i => isFin_coe _) hs b t o row hrow

/-- What the last step leaves in the result: the layer. -/
theorem tail_eq (c : Dev nD)
    (hx : ∀ i, IsFin ((m ((c : Thread nD τ).loc main_arg0) : S2x4096x3072.Idx → EReal) i))
    (hs : ∀ i, IsFin ((m ((c : Thread nD τ).loc main_arg2) : S3072x1.Idx → EReal) i)) :
    (Pipeline.afterTail₀ cfgs (dats m) 0 (V0 m) [hostOps1] c main_v10 : S2x4096x3072.Idx → EReal) = layer m c := by
  unfold Pipeline.afterTail₀
  show StableHlo.after hostOps1 _ (Proc.devRef .tc main_v10) = _
  after_results
  rw [Pipeline.withArrays_arr spec0 launch0.win.arr_inj c _ _ 5, array_eq]
  funext i
  show shapeCast S2x4096x3072 (tiled m c) Facts₀.shapeCasts_S8192x3072_S2x4096x3072 i = layer m c i
  obtain ⟨b, t, o, rfl⟩ : ∃ (b : Fin 2) (t : Fin 4096) (o : Fin 3072), i = ix3 b t o := ⟨i 0, i 1, i 2, eq_ix3 i⟩
  have hb := b.isLt
  have ht := t.isLt
  rw [shapeCast_apply (tiled m c) Facts₀.shapeCasts_S8192x3072_S2x4096x3072 (ix3 b t o)
    (ix2 (⟨b.val * 4096 + t.val, by omega⟩ : Fin 8192) o) (by
      show (S8192x3072.rowMajor _).val = (S2x4096x3072.rowMajor _).val
      rw [Shape.rowMajor_val_three, Shape.rowMajor_val_two]
      rfl)]
  exact tiled_eq_layer m c hx hs b t o _ rfl

/-- The kernel's run, with the result named: under finiteness of the activations and the scale on every core, every
    weakly fair execution terminates with the result array at the layer of the arguments, the arguments unchanged. -/
theorem kernel_run
    (hfin : ∀ c : Dev nD, (∀ i, IsFin ((m ((c : Thread nD τ).loc main_arg0) : S2x4096x3072.Idx → EReal) i))
      ∧ (∀ i, IsFin ((m ((c : Thread nD τ).loc main_arg2) : S3072x1.Idx → EReal) i))) :
    θ_run defs (onTc (τ := τ) (main (F := Ideal))) ⟨m, fun _ => 0, ρ⟩ fun r => ∀ c : Dev nD,
      r.2.mem ((c.tc : Thread nD τ).loc main_v10) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v10 (Pipeline.mem_restRefs_of main_v10 (by decide) (by decide))).trans
        (tail_eq m c (hfin c).1 (hfin c).2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.TernaryLora

end
-- ==== Proof.Reference.lean ====
/-
  The reference computes the layer as written.

  Operation by operation the reference forms: the weights as reals; the product of the activations with the weights
  over the input channels; the scale as a row, spread over batch and position; their product; the low-rank term
  through B, then A; the sum of the two; the bias spread over batch and position; the final sum. Read at an index
  (b, t, o) this is `result` at (b, t, o), term for term.
-/
import proofs.«126380_j78589311582693_1_alg».proof.Proof.Gen.ReferenceIdeal.Read
import proofs.«126380_j78589311582693_1_alg».proof.Proof.Spec

noncomputable section

open scoped BigOperators

namespace Cert.TernaryLora.Ref

open Idealize.ShloMosaic Idealize.ShloMosaic.ValueIdx
open Cert.ReferenceIdeal Cert.ReferenceIdeal.Gen Cert.ReferenceIdeal.Read Cert.TernaryLora

/-! ## The generated index functions, by coordinates -/

theorem lidx1 (i : S2x4096x3072.Idx) (k : Fin 3072) : lidx_main_v1 i k = ix3 (i 0) (i 1) k :=
  funext fun a => Fin.ext (by match a with | ⟨0, _⟩ => rfl | ⟨1, _⟩ => rfl | ⟨2, _⟩ => rfl)
theorem ridx1 (i : S2x4096x3072.Idx) (k : Fin 3072) : ridx_main_v1 i k = ix2 (i 2) k :=
  funext fun a => Fin.ext (by match a with | ⟨0, _⟩ => rfl | ⟨1, _⟩ => rfl)
theorem idx_scale (i : S2x4096x3072.Idx) : idx_main_v2 (idx_main_v3 i) = ix2 (i 2) (0 : Fin 1) :=
  funext fun a => Fin.ext (by
    match a with
    | ⟨0, _⟩ => show ((0 * 1 + 0) * 3072 + (i 2).val) / 1 = (i 2).val; omega
    | ⟨1, _⟩ => rfl)
theorem lidx5 (j : S2x4096x64.Idx) (k : Fin 3072) : lidx_main_v5 j k = ix3 (j 0) (j 1) k :=
  funext fun a => Fin.ext (by match a with | ⟨0, _⟩ => rfl | ⟨1, _⟩ => rfl | ⟨2, _⟩ => rfl)
theorem ridx5 (j : S2x4096x64.Idx) (k : Fin 3072) : ridx_main_v5 j k = ix2 (j 2) k :=
  funext fun a => Fin.ext (by match a with | ⟨0, _⟩ => rfl | ⟨1, _⟩ => rfl)
theorem lidx6 (i : S2x4096x3072.Idx) (r : Fin 64) : lidx_main_v6 i r = ix3 (i 0) (i 1) r :=
  funext fun a => Fin.ext (by match a with | ⟨0, _⟩ => rfl | ⟨1, _⟩ => rfl | ⟨2, _⟩ => rfl)
theorem ridx6 (i : S2x4096x3072.Idx) (r : Fin 64) : ridx_main_v6 i r = ix2 (i 2) r :=
  funext fun a => Fin.ext (by match a with | ⟨0, _⟩ => rfl | ⟨1, _⟩ => rfl)
theorem idx_bias (i : S2x4096x3072.Idx) : idx_main_v8 (idx_main_v9 i) = ix1 (i 2) :=
  funext fun a => Fin.ext (by match a with | ⟨0, _⟩ => rfl)

/-- The reference's last stage is the layer of its arguments (the integer weights read as reals). -/
theorem reference_eq (x0 : (⟨S2x4096x3072, .f32⟩ : BufTy).Contents (Elt Ideal)) (x1 : (⟨S3072x3072, .i32⟩ : BufTy).Contents (Elt Ideal))
    (x2 : (⟨S3072x1, .f32⟩ : BufTy).Contents (Elt Ideal)) (x3 : (⟨S3072x64, .f32⟩ : BufTy).Contents (Elt Ideal))
    (x4 : (⟨S64x3072, .f32⟩ : BufTy).Contents (Elt Ideal)) (x5 : (⟨S3072, .f32⟩ : BufTy).Contents (Elt Ideal)) :
    val_main_v10 (F := Ideal) x0 x1 x2 x3 x4 x5 = result x0 (sitofp (F := Ideal) .f32 x1) x2 x3 x4 x5 := by
  funext i
  rw [val_main_v10_apply, val_main_v7_apply, val_main_v4_apply, val_main_v1_apply, val_main_v3_apply, val_main_v2_apply,
    val_main_v6_apply, val_main_v9_apply, val_main_v8_apply]
  simp only [val_main_v5_apply, val_main_v0_apply]
  simp only [lidx5, ridx5]
  simp only [lidx1, ridx1, idx_scale, lidx6, ridx6, idx_bias]
  rfl

end Cert.TernaryLora.Ref

end
-- ==== Proof.LibFiniteTest.lean ====
/-
  The finiteness test "|v| < +infinity", read on the extended reals.

  A precondition of the form "every entry of the array v satisfies |v| < +inf" compares, entry by entry, the absolute
  value max v (-v) with the float word 0x7F800000 spread over v's shape. That word is +infinity, and max v (-v) is
  +infinity at both infinities, so the test passes at an index exactly when the entry there is a real number.
  (`isFin_of_test` is the form to apply to one conjunct of such a precondition once the "all entries" reduction has been
  opened at an index.)
-/
import proofs.«126380_j78589311582693_1_alg».proof.Proof.LibERealSums
import Idealize.ShloMosaic.PureOps.Ideal
import Idealize.ShloMosaic.Lib.Pipeline.Value
import Idealize.ShloMosaic.Lib.ValueIdx

noncomputable section

namespace Cert.LibFiniteTest

open Idealize.ShloMosaic Idealize.ShloMosaic.ValueIdx Cert.LibERealSums

/-- The float word 0x7F800000 is +infinity. -/
theorem top_word : Ideal.ofBits .f32 0x7F800000#32 = ⊤ := by
  simp [Ideal.ofBits, Ideal.ieee]

/-- An extended real whose absolute value is below +infinity is a real number. -/
theorem isFin_of_abs_lt_top (v : EReal) (h : Ideal.cmp .olt (max v (-v)) ⊤ = 1#1) : IsFin v := by
  induction v using EReal.rec with
  | bot => exact absurd h (by simp [Ideal.cmp])
  | top => exact absurd h (by simp [Ideal.cmp])
  | coe r => exact isFin_coe r

/-- The rank-0 shape has one index. -/
instance subsingleton_scalar_idx : Subsingleton (⟨0, ![]⟩ : Shape).Idx := ⟨fun a b => funext fun d => d.elim0⟩

/-- Where the test "|v| < +inf" (the +infinity word spread over the array's shape) passes at an index, the entry there
    is a real number. -/
theorem isFin_of_test {S : Shape} (v : FVec Ideal S .f32)
    (hb : (⟨0, ![]⟩ : Shape).BroadcastsInDim S (![] : Fin 0 → Fin S.rank)) (i : S.Idx)
    (h : cmpf .olt (Host.absf v) (broadcastInDim S ![] hb (constant (F := Ideal) ⟨0, ![]⟩ .f32 0x7F800000#32)) i = 1#1) :
    IsFin (v i) := by
  rw [cmpf_apply, broadcastInDim_apply ![] hb _ i ix0 (fun a => a.elim0), constant_apply, top_word] at h
  exact isFin_of_abs_lt_top (v i) h

end Cert.LibFiniteTest

end
-- ==== Proof.Finite.lean ====
/-
  The precondition, opened: the activations and the scale are real numbers.

  The precondition is a conjunction, over the five float arguments, of "all entries satisfy |v| < +inf". Its first two
  conjuncts are about the activations and the scale; each "all entries" reduction, being 1, gives the test at every
  index, and a passed test means the entry is a real number.
-/
import proofs.«126380_j78589311582693_1_alg».proof.Pre_finite_inputs
import proofs.«126380_j78589311582693_1_alg».proof.Proof.LibERealSums
import proofs.«126380_j78589311582693_1_alg».proof.Proof.LibFiniteTest
import Idealize.ShloMosaic.Lib.ValueIdx
import Idealize.ShloMosaic.Lib.ReduceAll
import Idealize.ShloMosaic.Lib.Affine

noncomputable section

namespace Cert.TernaryLora

open Idealize.ShloMosaic Idealize.ShloMosaic.ValueIdx Cert.LibERealSums Cert.LibFiniteTest

variable [Cert.Pre_finite_inputs.Facts]

open Cert.Pre_finite_inputs in
/-- Under the precondition every activation and every scale is a real number. -/
theorem finite_of_pre (x : FVec Ideal S2x4096x3072 .f32) (wq : IVec S3072x3072 32) (s : FVec Ideal S3072x1 .f32)
    (A : FVec Ideal S3072x64 .f32) (B : FVec Ideal S64x3072 .f32) (bias : FVec Ideal S3072 .f32)
    (h : Cert.Pre_finite_inputs.fn (F := Ideal) x wq s A B bias = fun _ => 1#1) :
    (∀ i, IsFin (x i)) ∧ (∀ i, IsFin (s i)) := by
  have h0 := congrFun h ix0
  dsimp only [fn, fn_part1] at h0
  simp only [andi, IntOp.andi_eq_one] at h0
  obtain ⟨⟨⟨⟨h3, h7⟩, -⟩, -⟩, -⟩ := h0
  exact ⟨fun i => isFin_of_test x _ i (Host.reduce_andi_all _ _ _ _ _ h3 i),
    fun i => isFin_of_test s _ i (Host.reduce_andi_all _ _ _ _ _ h7 i)⟩

end Cert.TernaryLora

end
-- ==== Proof.lean ====
/-
  A linear layer with ternary weights: the tiled kernel computes the reference's function.

  Both programs take activations x [2, 4096, 3072], integer weights [3072, 3072], a per-channel scale s [3072, 1],
  low-rank factors A [3072, 64] and B [64, 3072], and a bias [3072]. The reference computes, at batch b, position t and
  output channel o,

      (sum over k of x(b,t,k) * w(o,k)) * s(o)  +  sum over r of (sum over k of x(b,t,k) * B(r,k)) * A(o,r)  +  bias(o),

  w the weights read as reals. The kernel first multiplies each row of the weights by its scale, flattens the
  activations to [8192, 3072], and then fills the [8192, 3072] output tile by tile (16 x 3 tiles of 512 x 1024), each
  tile three row-against-row products and a bias row; at the end it reads the output back as [2, 4096, 3072].

  On the extended reals a change of float format is the identity and a product into a zero accumulator is the exact
  sum of products, so the kernel's entry (b, t, o) is

      sum over k of x(b,t,k) * (w(o,k) * s(o))  +  (the same low-rank term)  +  bias(o).

  The two differ only in where the scale sits. A finite factor moves out of a finite sum of finite terms, and under
  the precondition the activations and the scale are finite, while an integer read as a real always is: the two
  results are equal entry by entry (`Spec.lean`: `scaled_sum`, `rowsOut_eq_result`).

  The modules: `Spec` (the layer as one function, and the law), `Payload` (one tile entry by entry), `Entry` (the
  operands the tiles find, read back to the arguments), `Blocks` (the tiles cover the output: it holds `rowsOut`),
  `KernelRun` (the kernel's run ends at the layer), `Reference` (the reference's run ends at the layer), `Finite`
  (the precondition gives finiteness). The three programs run, terminate and keep their arguments by the generated
  frame modules and the generated run of the reference; the idealized kernel is the kernel's own text read on the
  extended reals, so nothing is owed for that step.
-/
import proofs.«126380_j78589311582693_1_alg».proof.Defs
import proofs.«126380_j78589311582693_1_alg».proof.Proof.Gen.Kernel
import proofs.«126380_j78589311582693_1_alg».proof.Proof.Gen.Kernel.Frame
import proofs.«126380_j78589311582693_1_alg».proof.Proof.Gen.KernelIdeal
import proofs.«126380_j78589311582693_1_alg».proof.Proof.Gen.KernelIdeal.Frame
import proofs.«126380_j78589311582693_1_alg».proof.Proof.Gen.ReferenceIdeal
import proofs.«126380_j78589311582693_1_alg».proof.Proof.Gen.Pre_finite_inputs
import proofs.«126380_j78589311582693_1_alg».proof.Proof.Gen.ReferenceIdeal.Run
import proofs.«126380_j78589311582693_1_alg».proof.Proof.Gen.ReferenceIdeal.Read
import proofs.«126380_j78589311582693_1_alg».proof.Proof.KernelRun
import proofs.«126380_j78589311582693_1_alg».proof.Proof.Reference
import proofs.«126380_j78589311582693_1_alg».proof.Proof.Finite
import Idealize.ShloMosaic.Adequacy
import Idealize.ShloMosaic.Init

noncomputable section

namespace Cert.Proof

open Idealize.ShloMosaic Idealize.SL.Sem

/-- The kernel as printed runs, terminates and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten between the kernel and its reading on the extended reals. -/
theorem preserves : Cert.preserves_Kernel_KernelIdeal := trivial

/-- From memories agreeing on the arguments, with every float argument finite, the kernel and the reference both end
    with their result at the layer of the arguments. -/
theorem algebraic : Cert.algebraic_KernelIdeal_ReferenceIdeal := by
  intro m ρ m' ρ' hpre hagree
  have hfin : ∀ c : Dev Cert.KernelIdeal.nD, _ := fun c => Cert.TernaryLora.finite_of_pre _ _ _ _ _ _ (hpre c)
  refine ⟨fun c => Cert.TernaryLora.layer m c, Cert.TernaryLora.kernel_run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.TernaryLora.Ref.reference_eq,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
